-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S256x4096 .f32) (main_arg1 : FVec F S4096x4096 .f32) (main_arg2 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S4096x1 : Shape := ⟨2, ![4096, 1]⟩
abbrev S1x4096 : Shape := ⟨2, ![1, 4096]⟩
abbrev S4096x4096x1 : Shape := ⟨3, ![4096, 4096, 1]⟩
abbrev S4096x4096x2 : Shape := ⟨3, ![4096, 4096, 2]⟩
abbrev S256x1024 : Shape := ⟨2, ![256, 1024]⟩
abbrev S1024x1024 : Shape := ⟨2, ![1024, 1024]⟩

abbrev nBuf : Space → Nat
  | .hbm => 82
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S_, .i1⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S1x4096, .i32⟩
  | .hbm, ⟨60, _⟩ => ⟨S4096x4096, .i32⟩
  | .hbm, ⟨61, _⟩ => ⟨S_, .f32⟩
  | .hbm, ⟨62, _⟩ => ⟨S4096x4096, .f32⟩
  | .hbm, ⟨63, _⟩ => ⟨S_, .i32⟩
  | .hbm, ⟨64, _⟩ => ⟨S4096x4096, .i32⟩
  | .hbm, ⟨65, _⟩ => ⟨S4096x4096, .i1⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x1, .i32⟩
  | .hbm, ⟨79, _⟩ => ⟨S4096x4096x2, .i32⟩
  | .hbm, ⟨80, _⟩ => ⟨S4096x4096, .f32⟩
  | .hbm, ⟨81, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_8 : Ref sig .tc := ⟨.hbm, 70, rfl⟩
abbrev main_v32 : Ref sig .tc := ⟨.hbm, 71, rfl⟩
abbrev main_v33 : Ref sig .tc := ⟨.hbm, 72, rfl⟩
abbrev main_c_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S4096x4096_S4096x4096x2_S4096x4096_n_01_01_2_wf : ScatterDims.WF S4096x4096 S4096x4096x2 S4096x4096 [] [0, 1] [0, 1] 2
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)

variable [Facts₀]

def scatter_S4096x4096_S4096x4096x2_S4096x4096_n_01_01_2 : ScatterDims S4096x4096 S4096x4096x2 S4096x4096 where
  updateWindowDims := []
  insertedWindowDims := [0, 1]
  scatterDimsToOperandDims := [0, 1]
  indexVectorDim := 2
  wf := scatter_S4096x4096_S4096x4096x2_S4096x4096_n_01_01_2_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S4096x1 : Shape := ⟨2, ![4096, 1]⟩
abbrev S1x4096 : Shape := ⟨2, ![1, 4096]⟩
abbrev S4096x4096x1 : Shape := ⟨3, ![4096, 4096, 1]⟩
abbrev S4096x4096x2 : Shape := ⟨3, ![4096, 4096, 2]⟩

abbrev nBuf : Space → Nat
  | .hbm => 83
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S_, .i1⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S1x4096, .i32⟩
  | .hbm, ⟨60, _⟩ => ⟨S4096x4096, .i32⟩
  | .hbm, ⟨61, _⟩ => ⟨S_, .f32⟩
  | .hbm, ⟨62, _⟩ => ⟨S4096x4096, .f32⟩
  | .hbm, ⟨63, _⟩ => ⟨S_, .i32⟩
  | .hbm, ⟨64, _⟩ => ⟨S4096x4096, .i32⟩
  | .hbm, ⟨65, _⟩ => ⟨S4096x4096, .i1⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x1, .i32⟩
  | .hbm, ⟨79, _⟩ => ⟨S4096x4096x2, .i32⟩
  | .hbm, ⟨80, _⟩ => ⟨S4096x4096, .f32⟩
  | .hbm, ⟨81, _⟩ => ⟨S4096x4096, .f32⟩
  | .hbm, ⟨82, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_8 : Ref sig .tc := ⟨.hbm, 70, rfl⟩
abbrev main_v32 : Ref sig .tc := ⟨.hbm, 71, rfl⟩
abbrev main_v33 : Ref sig .tc := ⟨.hbm, 72, rfl⟩
abbrev main_c_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩

abbrev nD : Nat := 1
abbrev τ : Topo := Topo.v7x

variable {F : FTy → Type} [FloatOps F]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  transposes_S4096x4096_S4096x4096_1_0 : S4096x4096.Transposes [1, 0] S4096x4096
  scatter_S4096x4096_S4096x4096x2_S4096x4096_n_01_01_2_wf : ScatterDims.WF S4096x4096 S4096x4096x2 S4096x4096 [] [0, 1] [0, 1] 2
  dot_S256x4096_S4096x4096_S256x4096_1_0_0_1_n_n_wf : DotDims.WF S256x4096 S4096x4096 S256x4096 [1] [0] [0] [1] [] []

variable [Facts₀]

def scatter_S4096x4096_S4096x4096x2_S4096x4096_n_01_01_2 : ScatterDims S4096x4096 S4096x4096x2 S4096x4096 where
  updateWindowDims := []
  insertedWindowDims := [0, 1]
  scatterDimsToOperandDims := [0, 1]
  indexVectorDim := 2
  wf := scatter_S4096x4096_S4096x4096x2_S4096x4096_n_01_01_2_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

class Facts : Prop extends Facts₀ where

variable [Facts]
-- ==== Proof.KernelPieces.lean ====
/-
  What one grid point of the kernel leaves behind, as arithmetic.

  The body runs in one of three ways, by the position `k` of the point along the contraction axis:
  first (`k = 0`), it zeroes its accumulator and then adds the block product into it; in the middle it only
  adds; last (`k = 3`) it adds and then copies the accumulator into the output block. So, with `x` and `w` the
  point's two input blocks and `acc` what the accumulator held before the point, the accumulator ends at
  `accumulate x w acc` (with `acc` the zero matrix at a first point), and at a last point the output block ends at that
  same value. `accumulate` is the body's one arithmetic payload; it is opened at an index elsewhere.
-/
import proofs.«141629_j65618510348678_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the accumulator, holding `acc`, ends at the payload of the two blocks over `acc`. -/
theorem scratch_middle (c : Dev nD) (i : grid0.Coords) (a3 : Memref sig .tc .vmem S256x1024 .f32) (h3 : a3.IsWhole)
    (a4 : Memref sig .tc .vmem S1024x1024 .f32) (h4 : a4.IsWhole) (a5 : Memref sig .tc .vmem S256x1024 .f32) (h5 : a5.IsWhole)
    (a6 : Memref sig .tc .vmem S256x1024 .f32) (h6 : a6.IsWhole) (hc0 : ¬cond0_0 i) (hc1 : ¬cond0_1 i)
    (x : Vec F S256x1024 .f32) (w : Vec F S1024x1024 .f32) (acc : Vec F S256x1024 .f32) :
    sout0_B_0 c i a3 h3 a4 h4 a5 h5 a6 h6 hc0 hc1 x w acc = k0_pay2 x w acc := by
  unfold sout0_B_0
  rw [View.read_writes_eq_canon _ _ _ (scover0_B_0 c i a3 h3 a4 h4 a5 h5 a6 h6 hc0 hc1 x w acc)]
  unfold kernelRun0_B
  dsimp only
  rw [View.canon_unit_zero hz]
  simp only [View.readAt_eq_ld, h3.read_unread, h4.read_unread, h6.read_unread, View.ld_unit_zero (S := S256x1024) hz,
    View.ld_unit_zero (S := S1024x1024) hz]

/-- A last point: the accumulator ends at the payload of the two blocks over `acc` … -/
theorem scratch_last (c : Dev nD) (i : grid0.Coords) (a3 : Memref sig .tc .vmem S256x1024 .f32) (h3 : a3.IsWhole)
    (a4 : Memref sig .tc .vmem S1024x1024 .f32) (h4 : a4.IsWhole) (a5 : Memref sig .tc .vmem S256x1024 .f32) (h5 : a5.IsWhole)
    (a6 : Memref sig .tc .vmem S256x1024 .f32) (h6 : a6.IsWhole) (hc0 : ¬cond0_0 i) (hc1 : cond0_1 i)
    (x : Vec F S256x1024 .f32) (w : Vec F S1024x1024 .f32) (acc : Vec F S256x1024 .f32) :
    sout0_C_0 c i a3 h3 a4 h4 a5 h5 a6 h6 hc0 hc1 x w acc = k0_pay2 x w acc := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero hz]
  simp only [View.readAt_eq_ld, h3.read_unread, h4.read_unread, h6.read_unread, View.ld_unit_zero (S := S256x1024) hz,
    View.ld_unit_zero (S := S1024x1024) hz]

/-- … and the output block, stored from the accumulator after the addition, at the same value. -/
theorem output_last (c : Dev nD) (i : grid0.Coords) (a3 : Memref sig .tc .vmem S256x1024 .f32) (h3 : a3.IsWhole)
    (a4 : Memref sig .tc .vmem S1024x1024 .f32) (h4 : a4.IsWhole) (a5 : Memref sig .tc .vmem S256x1024 .f32) (h5 : a5.IsWhole)
    (a6 : Memref sig .tc .vmem S256x1024 .f32) (h6 : a6.IsWhole) (hc0 : ¬cond0_0 i) (hc1 : cond0_1 i)
    (x : Vec F S256x1024 .f32) (w : Vec F S1024x1024 .f32) (acc : Vec F S256x1024 .f32) :
    out0_C_2 c i a3 h3 a4 h4 a5 h5 a6 h6 hc0 hc1 x w acc = k0_pay2 x w acc := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero hz, View.readCov_unit_zero (S := S256x1024) _ hz]
  simp only [View.readAt_eq_ld, h3.read_unread, h4.read_unread, h6.read_unread, View.ld_unit_zero (S := S256x1024) hz,
    View.ld_unit_zero (S := S1024x1024) hz]

/-- A first point: the accumulator is zeroed, then the block product is added: the payload over the zero matrix. -/
theorem scratch_first (c : Dev nD) (i : grid0.Coords) (a3 : Memref sig .tc .vmem S256x1024 .f32) (h3 : a3.IsWhole)
    (a4 : Memref sig .tc .vmem S1024x1024 .f32) (h4 : a4.IsWhole) (a5 : Memref sig .tc .vmem S256x1024 .f32) (h5 : a5.IsWhole)
    (a6 : Memref sig .tc .vmem S256x1024 .f32) (h6 : a6.IsWhole) (hc0 : cond0_0 i) (hc1 : ¬cond0_1 i)
    (x : Vec F S256x1024 .f32) (w : Vec F S1024x1024 .f32) :
    sout0_A_0 c i a3 h3 a4 h4 a5 h5 a6 h6 hc0 hc1 x w = k0_pay2 x w k0_pay1 := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S256x1024) hz, View.readCov_unit_zero (S := S256x1024) _ hz]
  simp only [View.readAt_eq_ld, h3.read_unread, h4.read_unread, View.ld_unit_zero (S := S256x1024) hz,
    View.ld_unit_zero (S := S1024x1024) hz]

end Cert.KernelIdeal.Pieces

end
-- ==== Proof.KernelPayload.lean ====
/-
  The arithmetic of the kernel body at one grid point, at the ideal values, read at an index.

  The body stores two values into its accumulator: the zero matrix (at the first step of a run along the
  contraction axis), and `acc + x · wᵀ` where `x : [256, 1024]` is the block of the left operand and
  `w : [1024, 1024]` the block of the right operand, both contracted along their second axis. At the ideal
  values the narrowing of both blocks to bf16 is the identity and the product into a zero accumulator is the plain
  sum, so entry `(p, q)` of the stored value is `acc (p, q) + Σ_κ x (p, κ) · w (q, κ)`.
-/
import proofs.«141629_j65618510348678_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The block product's dimension numbers: both operands contracted along axis 1, rows of the left operand and rows
    of the right operand kept. -/
abbrev blockDot : DotDims S256x1024 S1024x1024 S256x1024 := dot_S256x1024_S1024x1024_S256x1024_1_1_0_0_n_n

/-- The left operand's index at output `(p, q)` and contraction position `κ` is `(p, κ)`. -/
theorem lhs_index (p : Fin 256) (q κ : Fin 1024) :
    blockDot.lhsIdx (ix2 p q) ((contrEquiv1 blockDot 1024 rfl rfl).symm κ) = ix2 p κ :=
  funext fun a => Fin.ext (by
    match a with
    | ⟨0, _⟩ => rfl
    | ⟨1, _⟩ => exact (DotDims.lhsIdx_val_of_single blockDot (cl := 1) rfl _ _).trans (contrEquiv1_symm_val blockDot 1024 rfl rfl κ))

/-- The right operand's index at output `(p, q)` and contraction position `κ` is `(q, κ)`. -/
theorem rhs_index (p : Fin 256) (q κ : Fin 1024) :
    blockDot.rhsIdx (ix2 p q) ((contrEquiv1 blockDot 1024 rfl rfl).symm κ) = ix2 q κ :=
  funext fun a => Fin.ext (by
    match a with
    | ⟨0, _⟩ => rfl
    | ⟨1, _⟩ => exact (DotDims.rhsIdx_val_of_single blockDot (cr := 1) rfl _ _).trans (contrEquiv1_symm_val blockDot 1024 rfl rfl κ))

/-- The block product into the zero matrix, at entry `(p, q)`: `Σ_κ x (p, κ) · w (q, κ)`. -/
theorem blockProduct_apply (x : FVec Ideal S256x1024 .bf16) (w : FVec Ideal S1024x1024 .bf16) (p : Fin 256) (q : Fin 1024) :
    FloatOps.matmul blockDot none x w (constant (F := Ideal) S256x1024 .f32 0x00000000#32) (ix2 p q)
      = ∑ κ : Fin 1024, x (ix2 p κ) * w (ix2 q κ) := by
  rw [Ideal.matmul_constant_zero_apply, ← Equiv.sum_comp (contrEquiv1 blockDot 1024 rfl rfl).symm]
  exact Finset.sum_congr rfl fun κ _ => by rw [lhs_index, rhs_index]

/-- The value the body adds into its accumulator, at entry `(p, q)`: what the accumulator held there plus the
    block product's entry. -/
theorem accumulate_apply (x : Vec Ideal S256x1024 .f32) (w : Vec Ideal S1024x1024 .f32) (acc : Vec Ideal S256x1024 .f32)
    (p : Fin 256) (q : Fin 1024) :
    k0_pay2 (F := Ideal) x w acc (ix2 p q) = acc (ix2 p q) + ∑ κ : Fin 1024, x (ix2 p κ) * w (ix2 q κ) := by
  unfold k0_pay2
  simp only [shapeCast_self]
  refine (addf_apply _ _ _).trans ?_
  refine congrArg (acc (ix2 p q) + ·) ?_
  exact blockProduct_apply _ _ p q

/-- The value the body resets its accumulator to: zero at every entry. -/
theorem reset_apply (j : S256x1024.Idx) : k0_pay1 (F := Ideal) j = 0 := by
  unfold k0_pay1
  simp only [shapeCast_self]
  exact Ideal.ofBits_zero_f32

end Cert.KernelIdeal.Payload

end
-- ==== Proof.KernelFold.lean ====
/-
  The accumulator over one run of the contraction axis, at the ideal values.

  The grid's points come in runs of four consecutive points `4J, 4J+1, 4J+2, 4J+3` (one run per output block
  column `J`): the first zeroes the accumulator and adds its block product, the next three add theirs, and the
  last also copies the accumulator to the output block. So after the last point of a run both hold, at every
  entry, the sum of the run's four block products; entry `(p, q)` of the block product of point `n` is
  `Σ_κ xₙ (p, κ) · wₙ (q, κ)` over that point's two input blocks.
-/
import proofs.«141629_j65618510348678_1_alg».proof.Proof.Gen.KernelIdeal.Value
import proofs.«141629_j65618510348678_1_alg».proof.Proof.KernelPieces
import proofs.«141629_j65618510348678_1_alg».proof.Proof.KernelPayload

noncomputable section

open Idealize.ShloMosaic Idealize.ShloMosaic.TcCoe Idealize.SL.Sem

namespace Cert.KernelIdeal.Fold

open Cert.KernelIdeal Cert.KernelIdeal.Gen Cert.KernelIdeal.Value Idealize.ShloMosaic.ValueIdx

variable (m : (ℓ : Loc nD τ sig) → Buf (Elt Ideal) ℓ)

/-- Entry `(p, q)` of the product of a left block with the transpose of a right block. -/
def blockEntry (x : Vec Ideal S256x1024 .f32) (w : Vec Ideal S1024x1024 .f32) (p : Fin 256) (q : Fin 1024) : EReal :=
  ∑ κ : Fin 1024, x (ix2 p κ) * w (ix2 q κ)

/-- What point `n` adds to the accumulator at an entry: its block product there (nothing past the grid). -/
def addend (c : Dev nD) (n : ℕ) (i : S256x1024.Idx) : EReal :=
  if h : n < cfg0.N then blockEntry (iblk m c 0 ⟨n, h⟩) (iblk m c 1 ⟨n, h⟩) (i 0) (i 1) else 0

/-- The body's payload over the blocks of point `n`, at an entry: the accumulator there plus the point's addend. -/
theorem payload_at (c : Dev nD) (n : ℕ) (h : n < cfg0.N) (acc : Vec Ideal S256x1024 .f32) (i : S256x1024.Idx) :
    k0_pay2 (F := Ideal) (iblk m c 0 ⟨n, h⟩) (iblk m c 1 ⟨n, h⟩) acc i = acc i + addend m c n i := by
  obtain ⟨p, q, rfl⟩ : ∃ (p : Fin 256) (q : Fin 1024), i = ix2 p q := ⟨i 0, i 1, eq_ix2 i⟩
  refine (Payload.accumulate_apply (iblk m c 0 ⟨n, h⟩) (iblk m c 1 ⟨n, h⟩) acc p q).trans ?_
  unfold addend
  rw [dif_pos h]
  rfl

/-- A point that is not the first of its run leaves the accumulator at what it held plus the point's addend. -/
theorem step_at (c : Dev nD) (n : ℕ) (h : n < cfg0.N) (hn : ¬n % 4 = 0) (acc : Vec Ideal S256x1024 .f32) (i : S256x1024.Idx) :
    scAt0_0 m c n h acc i = acc i + addend m c n i := by
  unfold scAt0_0
  rw [dif_neg hn]
  by_cases h1 : n % 4 = 3
  · rw [dif_pos h1]
    exact (congrFun (Pieces.scratch_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun h' => hn ((hcond0_0 ⟨n, h⟩).mp h')) ((hcond0_1 ⟨n, h⟩).mpr h1)
      (iblk m c 0 ⟨n, h⟩) (iblk m c 1 ⟨n, h⟩) acc) i).trans (payload_at m c n h acc i)
  · rw [dif_neg h1]
    exact (congrFun (Pieces.scratch_middle c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun h' => hn ((hcond0_0 ⟨n, h⟩).mp h')) (fun h' => h1 ((hcond0_1 ⟨n, h⟩).mp h'))
      (iblk m c 0 ⟨n, h⟩) (iblk m c 1 ⟨n, h⟩) acc) i).trans (payload_at m c n h acc i)

/-- The first point of a run leaves the accumulator at its addend (over the zero it resets to), whatever it held. -/
theorem reset_at (c : Dev nD) (n : ℕ) (h : n < cfg0.N) (hn : n % 4 = 0) (acc : Vec Ideal S256x1024 .f32) (i : S256x1024.Idx) :
    scAt0_0 m c n h acc i = 0 + addend m c n i := by
  have h1 : ¬n % 4 = 3 := by omega
  unfold scAt0_0
  rw [dif_pos hn, dif_neg h1]
  refine (congrFun (Pieces.scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr hn) (fun h' => h1 ((hcond0_1 ⟨n, h⟩).mp h'))
    (iblk m c 0 ⟨n, h⟩) (iblk m c 1 ⟨n, h⟩)) i).trans ?_
  have key : ∀ z : EReal, z = 0 → z + addend m c n i = 0 + addend m c n i := fun z hz => by rw [hz]
  exact (payload_at m c n h (k0_pay1 (F := Ideal)) i).trans (key _ (Payload.reset_apply i))

/-- After the last point of a run the accumulator holds, at every entry, the sum of the run's four addends. -/
theorem scratch_after_run (c : Dev nD) (t : Fin cfg0.N) (ht : t.val % 4 = 3) (i : S256x1024.Idx) :
    (outsAt0 m c t.val t.isLt).2 i = ∑ s ∈ Finset.range 4, addend m c (4 * (t.val / 4) + s) i := by
  rw [soutsAt0_0_eq m c t]
  have key : ∀ (j : ℕ) (hj : j = 3) (h' : 4 * (t.val / 4) + j < cfg0.N),
      Pipeline.accAt (fun n h => scAt0_0 m c n h (VS0_0.read (Elt Ideal) VS0_0.junk)) (scAt0_0 m c) (4 * (t.val / 4)) j h' i
        = ∑ s ∈ Finset.range 4, addend m c (4 * (t.val / 4) + s) i := by
    intro j hj h'
    subst hj
    refine (Pipeline.accAt_add_apply (fun n h => scAt0_0 m c n h (VS0_0.read (Elt Ideal) VS0_0.junk)) (scAt0_0 m c)
      (fun _ => (0 : EReal)) (addend m c) (4 * (t.val / 4)) 3
      (fun h i => reset_at m c _ h (by omega) _ i)
      (fun n h acc i hb he => step_at m c n h (by omega) acc i) 3 le_rfl h' i).trans ?_
    exact zero_add _
  exact key _ ht _

/-- At the last point of a run the output block is stored from the accumulator: the two hold the same value. -/
theorem output_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (Pieces.output_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Pieces.scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Fold

end
-- ==== Proof.KernelWindows.lean ====
/-
  The geometry of the kernel's three windows.

  The grid has 16 points; point `t` is output block column `t / 4` at contraction step `t % 4`. At point `t`
    • the left operand's window holds the block of columns `1024 · (t % 4) + κ` of the left operand, every row;
    • the weight matrix's window holds the block of rows `1024 · (t / 4) + q` and columns `1024 · (t % 4) + κ`;
    • the output's window is the block of columns `1024 · (t / 4) + q` of the output, every row, and it is written
      back exactly at the last contraction step, `t % 4 = 3`.
  A block's coordinate in its array is always the block index times the block's extent plus the coordinate inside
  the block. The four output blocks written back tile the output: every output position lies in the block of the
  point `4 · (column / 1024) + 3`.
-/
import proofs.«141629_j65618510348678_1_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The grid has 16 points. -/
theorem point_lt (t : Fin cfg0.N) : t.val < 16 := lt_of_lt_of_eq t.isLt N_0

/-- Position along the contracted axis of entry `κ` of the block at point `t`. -/
def kOff (t : Fin cfg0.N) (κ : Fin 1024) : Fin 4096 :=
  ⟨1024 * (t.val % 4) + κ.val, by have := κ.isLt; omega⟩

/-- Row of the weight matrix (= output column) of entry `q` of the block at point `t`. -/
def jOff (t : Fin cfg0.N) (q : Fin 1024) : Fin 4096 :=
  ⟨1024 * (t.val / 4) + q.val, by have := q.isLt; have := point_lt t; omega⟩

/-- The three index maps over the grid: the left operand's block index is `(0, t % 4)`, the weight matrix's
    `(t / 4, t % 4)`, the output's `(0, t / 4)`. -/
theorem idx_facts : ∀ t : Fin cfg0.N, win0_0.index t (0 : Fin 2) = 0
    ∧ win0_0.index t (1 : Fin 2) = t.val % 4
    ∧ win0_1.index t (0 : Fin 2) = t.val / 4
    ∧ win0_1.index t (1 : Fin 2) = t.val % 4
    ∧ win0_2.index t (0 : Fin 2) = 0
    ∧ win0_2.index t (1 : Fin 2) = t.val / 4 :=
  (by decide +kernel : ∀ t : Fin grid0.N, _)

/-! ## The blocks' positions in their arrays -/

/-- Entry `(p, κ)` of the left operand's block at point `t` sits at `(p, 1024 · (t % 4) + κ)`. -/
theorem left_emb (t : Fin cfg0.N) (p : Fin 256) (κ : Fin 1024) :
    (((cfg0.win 0).blk t).view.emb (ix2 p κ) : S256x4096.Idx) = ix2 p (kOff t κ) := by
  obtain ⟨e0, e1, -, -, -, -⟩ := idx_facts t
  funext a; apply Fin.ext
  match a with
  | ⟨0, _⟩ => show win0_0.index t (0 : Fin 2) * 256 + 1 * p.val = p.val; omega
  | ⟨1, _⟩ => show win0_0.index t (1 : Fin 2) * 1024 + 1 * κ.val = 1024 * (t.val % 4) + κ.val; omega

/-- Entry `(q, κ)` of the weight matrix's block at point `t` sits at `(1024 · (t / 4) + q, 1024 · (t % 4) + κ)`. -/
theorem right_emb (t : Fin cfg0.N) (q κ : Fin 1024) :
    (((cfg0.win 1).blk t).view.emb (ix2 q κ) : S4096x4096.Idx) = ix2 (jOff t q) (kOff t κ) := by
  obtain ⟨-, -, e2, e3, -, -⟩ := idx_facts t
  funext a; apply Fin.ext
  match a with
  | ⟨0, _⟩ => show win0_1.index t (0 : Fin 2) * 1024 + 1 * q.val = 1024 * (t.val / 4) + q.val; omega
  | ⟨1, _⟩ => show win0_1.index t (1 : Fin 2) * 1024 + 1 * κ.val = 1024 * (t.val % 4) + κ.val; omega

/-- Entry `(p, q)` of the output's block at point `t` sits at `(p, 1024 · (t / 4) + q)`. -/
theorem out_emb (t : Fin cfg0.N) (p : Fin 256) (q : Fin 1024) :
    (((cfg0.win 2).blk t).view.emb (ix2 p q) : S256x4096.Idx) = ix2 p (jOff t q) := by
  obtain ⟨-, -, -, -, e4, e5⟩ := idx_facts t
  funext a; apply Fin.ext
  match a with
  | ⟨0, _⟩ => show win0_2.index t (0 : Fin 2) * 256 + 1 * p.val = p.val; omega
  | ⟨1, _⟩ => show win0_2.index t (1 : Fin 2) * 1024 + 1 * q.val = 1024 * (t.val / 4) + q.val; omega

/-! ## The blocks read at an entry -/

/-- The left operand's block at point `t`, at `(p, κ)`: the left operand at `(p, 1024 · (t % 4) + κ)`. -/
theorem left_block_apply (c : Dev nD) (t : Fin cfg0.N) (p : Fin 256) (κ : Fin 1024) :
    (iblk m c 0 t : S256x1024.Idx → F .f32) (ix2 p κ) = (V m c main_arg0 : S256x4096.Idx → F .f32) (ix2 p (kOff t κ)) := by
  show (V m c main_arg0 : S256x4096.Idx → F .f32) (((cfg0.win 0).blk t).view.emb (ix2 p κ)) = _
  exact congrArg (V m c main_arg0 : S256x4096.Idx → F .f32) (left_emb t p κ)

/-- The weight matrix's block at point `t`, at `(q, κ)`: the matrix at `(1024 · (t / 4) + q, 1024 · (t % 4) + κ)`. -/
theorem right_block_apply (c : Dev nD) (t : Fin cfg0.N) (q κ : Fin 1024) :
    (iblk m c 1 t : S1024x1024.Idx → F .f32) (ix2 q κ) = (V m c main_v40 : S4096x4096.Idx → F .f32) (ix2 (jOff t q) (kOff t κ)) := by
  show (V m c main_v40 : S4096x4096.Idx → F .f32) (((cfg0.win 1).blk t).view.emb (ix2 q κ)) = _
  exact congrArg (V m c main_v40 : S4096x4096.Idx → F .f32) (right_emb t q κ)

/-- Any array read through the output's block at point `t`, at `(p, q)`: the array at `(p, 1024 · (t / 4) + q)`. -/
theorem out_block_read (G : S256x4096.Idx → F .f32) (t : Fin cfg0.N) (p : Fin 256) (q : Fin 1024) :
    (((cfg0.win 2).blk t).view.read (Elt F) G : S256x1024.Idx → F .f32) (ix2 p q) = G (ix2 p (jOff t q)) := by
  show G (((cfg0.win 2).blk t).view.emb (ix2 p q)) = _
  exact congrArg G (out_emb t p q)

/-! ## The output blocks written back cover the output -/

/-- A position of the output is in point `t`'s block iff each coordinate is in the block's range on its axis. -/
theorem mem_blk2 (t : Fin cfg0.N) (i : S256x4096.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v41).slice (win0_2.rect t)).set ↔ _
  rw [View.set_slice_whole, Rect.mem_set_unit]
  exact Iff.rfl

/-- Every position of the output lies in a block that is written back: the block of the last contraction step of
    its block column. -/
theorem cover (i : S256x4096.Idx) : ∃ t : Fin cfg0.N, (cfg0.win 2).flush t = true ∧ i ∈ ((cfg0.win 2).blk t).view.set := by
  have hi0 : (i 0).val < 256 := (i 0).isLt
  have hi1 : (i 1).val < 4096 := (i 1).isLt
  let t : Fin cfg0.N := ⟨4 * ((i 1).val / 1024) + 3, lt_of_lt_of_eq (by omega : 4 * ((i 1).val / 1024) + 3 < 16) N_0.symm⟩
  have ht : t.val = 4 * ((i 1).val / 1024) + 3 := rfl
  obtain ⟨-, -, -, -, e4, e5⟩ := idx_facts t
  refine ⟨t, (flush0_2 t).mpr (by omega), ?_⟩
  rw [mem_blk2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

end Cert.KernelIdeal.Windows

end
-- ==== Proof.HostWeights.lean ====
/-
  The weight matrix both programs build before their matrix product, as ONE function of the two
  parameter arrays `V : f32[4096, 4096]` and `α : f32[4096]`.

  In formulas, over any float values `F`:
    e      = exp (α − max α)                       the shifted exponentials of a softmax
    s      = e / Σ e                               the softmax
    g      = min 1 (max 0 (3687 · s))              the soft top-k gate, clipped to [0, 1]
    U i j  = V i j · g i                           every row of `V` scaled by its gate
    r i j  = (j + i) mod 4096                      the wrapped diagonal: row `i`, column `j` of `U` lands in row `r i j`
    W      = scatter-add of `U` into zeros at the positions `(r i j, j)`.
  Each stage below is the host operation applied to its operands' terms, spelt as the reference program
  spells it (the floored remainder is the outlined `remainder` with its guarded divisor; negative
  positions are shifted by the extent before the scatter, as the lowering does). Nothing here is ever
  evaluated: the two programs are compared with `weights V α` as an opaque value.
-/
import proofs.«141629_j65618510348678_1_alg».proof.ReferenceIdeal
import proofs.«141629_j65618510348678_1_alg».proof.Proof.Gen.ReferenceIdeal

noncomputable section

namespace Cert.ReferenceIdeal.Weights

open Cert.ReferenceIdeal Cert.ReferenceIdeal.Gen Idealize.ShloMosaic

variable {F : FTy → Type} [FloatOps F]

/-! ## The gate: a clipped, scaled softmax of `α` -/

/-- `exp (αᵢ − max α)`; the maximum is the reduction from `−∞`, joined once more with `−∞`. -/
def shiftedExp (α : FVec F S4096 .f32) : FVec F S4096 .f32 :=
  Host.exp (subf α
    (broadcastInDim S4096 ![0] bcast_S1_S4096_0
      (broadcastInDim S1 ![] bcast_S_S1
        (maximumf (constant (F := F) S_ .f32 0xFF800000#32)
          (Host.reduce FloatOps.maximumf α (constant (F := F) S_ .f32 0xFF800000#32) reducesTo_S4096_S_d0 h_S_)))))

/-- The softmax: each shifted exponential over their sum (the sum starts from `0`). -/
def softmax (α : FVec F S4096 .f32) : FVec F S4096 .f32 :=
  Host.divf (shiftedExp α)
    (broadcastInDim S4096 ![0] bcast_S1_S4096_0
      (broadcastInDim S1 ![] bcast_S_S1
        (Host.reduceAdd (shiftedExp α) (constant (F := F) S_ .f32 0x00000000#32) reducesTo_S4096_S_d0 h_S_)))

/-- `3687 · softmax α`, before clipping. -/
def scaledSoftmax (α : FVec F S4096 .f32) : FVec F S4096 .f32 :=
  mulf (broadcastInDim S4096 ![] bcast_S_S4096 (constant (F := F) S_ .f32 0x45667000#32)) (softmax α)

/-- The gate `min 1 (max 0 (3687 · softmax α))`: the outlined `clip`, its two bounds converted (the identity) and splat. -/
def gate (α : FVec F S4096 .f32) : FVec F S4096 .f32 :=
  minimumf (broadcastInDim S4096 ![] bcast_S_S4096 (id (constant (F := F) S_ .f32 0x3F800000#32)))
    (maximumf (broadcastInDim S4096 ![] bcast_S_S4096 (id (constant (F := F) S_ .f32 0x00000000#32))) (scaledSoftmax α))

/-- `U i j = V i j · g i`: the gate as a column, broadcast along the rows, times `V`. -/
def scaledRows (V : FVec F S4096x4096 .f32) (α : FVec F S4096 .f32) : FVec F S4096x4096 .f32 :=
  mulf V (broadcastInDim S4096x4096 ![0, 1] bcast_S4096x1_S4096x4096_0_1
    (broadcastInDim S4096x1 ![0] bcast_S4096_S4096x1_0 (gate α)))

/-! ## The positions: the wrapped diagonal `(i, j) ↦ ((j + i) mod 4096, j)` -/

/-- `j + i` at position `(i, j)`: the column index as a row vector plus the row index as a column vector. -/
def diagSum : IVec S4096x4096 32 :=
  addi
    (broadcastInDim S4096x4096 ![0, 1] bcast_S1x4096_S4096x4096_0_1
      (broadcastInDim S1x4096 ![1] bcast_S4096_S1x4096_1 (iotaInDim S4096 32 0)))
    (broadcastInDim S4096x4096 ![0, 1] bcast_S4096x1_S4096x4096_0_1
      (broadcastInDim S4096x1 ![0] bcast_S4096_S4096x1_0 (iotaInDim S4096 32 0)))

/-- The divisor of the floored remainder: `4096`, replaced by `1` were it `0` (the outlined `_where`). -/
def divisor : IVec S_ 32 :=
  select (cmpi .eq (id (constantI S_ 32 4096#32)) (constantI S_ 32 0#32)) (constantI S_ 32 1#32) (id (constantI S_ 32 4096#32))

/-- The truncated remainder of `j + i` by the divisor. -/
def truncRem : IVec S4096x4096 32 :=
  Host.remsi diagSum (broadcastInDim S4096x4096 ![] bcast_S_S4096x4096 divisor)

/-- The floored remainder `(j + i) mod 4096`: the truncated one, shifted by the divisor where it is nonzero and its sign
    differs from the divisor's. -/
def wrappedRow : IVec S4096x4096 32 :=
  select
    (andi
      (cmpi .ne
        (cmpi .slt truncRem (broadcastInDim S4096x4096 ![] bcast_S_S4096x4096 (constantI S_ 32 0#32)))
        (broadcastInDim S4096x4096 ![] bcast_S_S4096x4096 (cmpi .slt divisor (constantI S_ 32 0#32))))
      (cmpi .ne truncRem (broadcastInDim S4096x4096 ![] bcast_S_S4096x4096 (constantI S_ 32 0#32))))
    (addi truncRem (broadcastInDim S4096x4096 ![] bcast_S_S4096x4096 divisor))
    truncRem

/-- The column index `j` at position `(i, j)`. -/
def colIndex : IVec S4096x4096 32 :=
  broadcastInDim S4096x4096 ![0, 1] bcast_S1x4096_S4096x4096_0_1
    (broadcastInDim S1x4096 ![1] bcast_S4096_S1x4096_1 (iotaInDim S4096 32 0))

/-- An index array with its negative entries shifted by the extent `4096` (the scatter's index normalization). -/
def normalized (x : IVec S4096x4096 32) : IVec S4096x4096 32 :=
  select (cmpi .slt x (broadcastInDim S4096x4096 ![] bcast_S_S4096x4096 (constantI S_ 32 0#32)))
    (addi x (broadcastInDim S4096x4096 ![] bcast_S_S4096x4096 (constantI S_ 32 4096#32)))
    x

/-- The positions `(row, column)` of the scatter, one pair per entry of `U`: the two index arrays joined on a last axis. -/
def positions : IVec S4096x4096x2 32 :=
  concatenate S4096x4096x2 2
    [⟨S4096x4096x1, broadcastInDim S4096x4096x1 ![0, 1] bcast_S4096x4096_S4096x4096x1_0_1 (normalized wrappedRow)⟩,
     ⟨S4096x4096x1, broadcastInDim S4096x4096x1 ![0, 1] bcast_S4096x4096_S4096x4096x1_0_1 (normalized colIndex)⟩]
    concatenates_S4096x4096x1_S4096x4096x1_S4096x4096x2_d2

/-! ## The weight matrix -/

/-- `W`: the rows of `V`, each scaled by its gate, added into a zero matrix along the wrapped diagonals. -/
def weights (V : FVec F S4096x4096 .f32) (α : FVec F S4096 .f32) : FVec F S4096x4096 .f32 :=
  Host.scatterAdd scatter_S4096x4096_S4096x4096x2_S4096x4096_n_01_01_2
    (broadcastInDim S4096x4096 ![] bcast_S_S4096x4096 (constant (F := F) S_ .f32 0x00000000#32))
    positions
    (scaledRows V α)

end Cert.ReferenceIdeal.Weights

end
-- ==== Proof.LibConcatCongr.lean ====
/-
  A congruence rule for a two-piece `concatenate`.

  `concatenate t a xs h` takes its pieces as a list of pairs (a shape, an array of that shape), and the proof `h`
  that the pieces' shapes join to `t` along axis `a` mentions that list. For two pieces: equal pieces give equal
  joins. Stated as a congruence rule, so that an equation between arrays can be used inside either piece.
-/
import Idealize.ShloMosaic.PureOps

namespace Cert.Lib

open Idealize.ShloMosaic

/-- Two pieces joined along an axis: equal pieces give equal joins. -/
theorem concatenate_pair_congr {α : Type} (t : Shape) (a : Fin t.rank) (s₁ s₂ : Shape)
    (x x' : s₁.Idx → α) (y y' : s₂.Idx → α) (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Lib
-- ==== Proof.KernelWeights.lean ====
/-
  What the idealized kernel's matrix product finds in its second operand: the weight matrix of
  `HostWeights`, the same function of the two parameter arrays the reference computes.
-/
import proofs.«141629_j65618510348678_1_alg».proof.Proof.Gen.KernelIdeal.Frame
import proofs.«141629_j65618510348678_1_alg».proof.Proof.HostWeights
import proofs.«141629_j65618510348678_1_alg».proof.Proof.LibConcatCongr
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local congr] Cert.Lib.concatenate_pair_congr

attribute [local irreducible] Host.scatterAdd concatenate broadcastInDim Host.reduce Host.reduceAdd Host.remsi iotaInDim in
set_option maxHeartbeats 400000 in
/-- When the matrix product is entered its second operand holds `weights V α` of the launch contents of the two
    parameter arrays: the host operations before it are the stages of `weights`, one by one. -/
theorem entry_weights (c : Dev nD) :
    (V m c main_v40 : S4096x4096.Idx → F .f32)
      = Cert.ReferenceIdeal.Weights.weights (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostValue

end
-- ==== Proof.BlockSum.lean ====
/-
  The one law that joins the two programs: a sum over `4096` consecutive indices is the sum, over `4`
  consecutive blocks, of the sums over each block's `1024` indices. It uses commutativity and associativity of
  addition only, so it holds in every commutative additive monoid — on the extended reals in particular, at the
  infinities too, with no finiteness hypothesis.
-/
import Mathlib.Algebra.BigOperators.Fin
import Mathlib.Logic.Equiv.Fin.Basic

namespace Cert.BlockSum

open Finset

/-- `Σ_{s < 4} Σ_{κ < 1024} f (1024·s + κ) = Σ_{q < 4096} f q`: the pairs `(s, κ)` number the indices `q = 1024·s + κ`. -/
theorem sum_blocks {β : Type*} [AddCommMonoid β] (f : ℕ → β) :
    ∑ s ∈ Finset.range 4, ∑ κ : Fin 1024, f (1024 * s + κ.val) = ∑ q : Fin 4096, f q.val := by
  rw [Finset.sum_range (fun s => ∑ κ : Fin 1024, f (1024 * s + κ.val)), ← Fintype.sum_prod_type']
  refine Fintype.sum_equiv (finProdFinEquiv (m := 4) (n := 1024)) _ (fun q : Fin (4 * 1024) => f q.val) (fun x => ?_)
  show f (1024 * x.1.val + x.2.val) = f (x.2.val + 1024 * x.1.val)
  rw [Nat.add_comm]

end Cert.BlockSum
-- ==== Proof.ProductSpec.lean ====
/-
  The result both programs compute, as one function of the left operand `X : [256, 4096]` and the weight
  matrix `W : [4096, 4096]`, at the ideal values:

      result (p, n) = Σ_{r < 4096} X (p, r) · W (n, r)          (that is, X · Wᵀ)

  The reference computes it as one product with the transposed matrix; the kernel as four partial products
  per output block, accumulated. Stated over literal shapes, so that either program's spelling of them meets it.
-/
import Idealize.ShloMosaic.PureOps.Ideal
import Idealize.ShloMosaic.Lib.ValueIdx

noncomputable section

namespace Cert.Spec

open Idealize.ShloMosaic Idealize.ShloMosaic.ValueIdx

/-- `X · Wᵀ`, entry by entry, on the extended reals. -/
def product (X : (⟨2, ![256, 4096]⟩ : Shape).Idx → EReal) (W : (⟨2, ![4096, 4096]⟩ : Shape).Idx → EReal) :
    (⟨2, ![256, 4096]⟩ : Shape).Idx → EReal :=
  fun i => ∑ r : Fin 4096, X (ix2 (i 0) r) * W (ix2 (i 1) r)

/-- Its entry `(p, n)`. -/
theorem product_apply (X : (⟨2, ![256, 4096]⟩ : Shape).Idx → EReal) (W : (⟨2, ![4096, 4096]⟩ : Shape).Idx → EReal)
    (p : Fin 256) (n : Fin 4096) : product X W (ix2 p n) = ∑ r : Fin 4096, X (ix2 p r) * W (ix2 n r) := rfl

end Cert.Spec

end
-- ==== Proof.KernelValue.lean ====
/-
  The idealized kernel's result array: `X · Wᵀ` of the left operand and the weight matrix it finds.

  Output block column `J` is written back once, at the last point `4J + 3` of its run, from the accumulator,
  which then holds at entry `(p, q)` the sum over the run's four points `s` of `Σ_κ X (p, 1024 s + κ) · W (1024 J + q, 1024 s + κ)`
  (each point's blocks read through their windows). The pairs `(s, κ)` number the contraction positions
  `r = 1024 s + κ`, so that is `Σ_r X (p, r) · W (1024 J + q, r)`: entry `(p, 1024 J + q)` of `X · Wᵀ`. The four
  written blocks cover the array.
-/
import proofs.«141629_j65618510348678_1_alg».proof.Proof.Gen.KernelIdeal.Value
import proofs.«141629_j65618510348678_1_alg».proof.Proof.KernelFold
import proofs.«141629_j65618510348678_1_alg».proof.Proof.KernelWindows
import proofs.«141629_j65618510348678_1_alg».proof.Proof.KernelWeights
import proofs.«141629_j65618510348678_1_alg».proof.Proof.BlockSum
import proofs.«141629_j65618510348678_1_alg».proof.Proof.ProductSpec

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Idealize.ShloMosaic.ValueIdx

variable (m : (ℓ : Loc nD τ sig) → Buf (Elt Ideal) ℓ) (ρ : Dev nD → PrngReg)

/-- The left operand as the matrix product finds it. -/
abbrev X (c : Dev nD) : S256x4096.Idx → EReal := V m c main_arg0
/-- The weight matrix as the matrix product finds it. -/
abbrev W (c : Dev nD) : S4096x4096.Idx → EReal := V m c main_v40

/-- The four addends of the run that ends at point `t`, at entry `(p, q)`, sum to entry `(p, 1024·(t/4) + q)` of `X · Wᵀ`. -/
theorem run_sum (c : Dev nD) (t : Fin cfg0.N) (p : Fin 256) (q : Fin 1024) :
    ∑ s ∈ Finset.range 4, Fold.addend m c (4 * (t.val / 4) + s) (ix2 p q)
      = Spec.product (X m c) (W m c) (ix2 p (Windows.jOff t q)) := by
  have ht : t.val < 16 := Windows.point_lt t
  have hN : cfg0.N = 16 := N_0
  rw [Spec.product_apply]
  -- the summand as a function of the contraction position
  let f : ℕ → EReal := fun r => if h : r < 4096 then X m c (ix2 p ⟨r, h⟩) * W m c (ix2 (Windows.jOff t q) ⟨r, h⟩) else 0
  have hf : ∀ r : Fin 4096, X m c (ix2 p r) * W m c (ix2 (Windows.jOff t q) r) = f r.val := fun r => by
    show _ = dite _ _ _
    rw [dif_pos r.isLt]
  rw [Finset.sum_congr rfl (fun r _ => hf r), ← BlockSum.sum_blocks f]
  refine Finset.sum_congr rfl fun s hs => ?_
  have hs4 : s < 4 := Finset.mem_range.mp hs
  have hn : 4 * (t.val / 4) + s < cfg0.N := by omega
  unfold Fold.addend
  rw [dif_pos hn]
  unfold Fold.blockEntry
  refine Finset.sum_congr rfl fun κ _ => ?_
  have hk : 1024 * s + κ.val < 4096 := by have := κ.isLt; omega
  have e1 : Windows.kOff ⟨4 * (t.val / 4) + s, hn⟩ κ = ⟨1024 * s + κ.val, hk⟩ :=
    Fin.ext (by show 1024 * ((4 * (t.val / 4) + s) % 4) + κ.val = 1024 * s + κ.val; omega)
  have e2 : Windows.jOff ⟨4 * (t.val / 4) + s, hn⟩ q = Windows.jOff t q :=
    Fin.ext (by show 1024 * ((4 * (t.val / 4) + s) / 4) + q.val = 1024 * (t.val / 4) + q.val; omega)
  refine (congrArg₂ (fun a b : EReal => a * b) (Windows.left_block_apply m c ⟨4 * (t.val / 4) + s, hn⟩ p κ)
    (Windows.right_block_apply m c ⟨4 * (t.val / 4) + s, hn⟩ q κ)).trans ?_
  rw [e1, e2]
  show _ = dite _ _ _
  rw [dif_pos hk]

/-- What a writing-back point writes is its block of `X · Wᵀ`. -/
theorem flushed_eq (c : Dev nD) (t : Fin cfg0.N) (hf : (cfg0.win 2).flush t = true) :
    (dats m 0 c).flushed 2 t = ((cfg0.win 2).blk t).view.read (Elt Ideal) (Spec.product (X m c) (W m c)) := by
  have h3 : t.val % 4 = 3 := (flush0_2 t).mp hf
  have h0 : ¬t.val % 4 = 0 := by omega
  rw [Value.flushed2]
  refine funext fun (j : S256x1024.Idx) => ?_
  obtain ⟨p, q, rfl⟩ : ∃ (p : Fin 256) (q : Fin 1024), j = ix2 p q := ⟨j 0, j 1, eq_ix2 j⟩
  show (outsAt0 m c t.val t.isLt).1 (ix2 p q) = _
  rw [Fold.output_eq_scratch m c t h0 h3, Fold.scratch_after_run m c t h3]
  exact (run_sum m c t p q).trans (Windows.out_block_read (F := Ideal) (Spec.product (X m c) (W m c)) t p q).symm

/-- So the result array ends at `X · Wᵀ`. -/
theorem final (c : Dev nD) : (dats m 0 c).arrAt 2 cfg0.N = Spec.product (X m c) (W m c) :=
  (dats m 0 c).arrAt_eq_of_cover 2 (Spec.product (X m c) (W m c)) (flushed_eq m c) Windows.cover

/-- The run, read: the result at `X · Wᵀ` of the launch's left operand and the weight matrix of the launch's two
    parameter arrays; the three arguments unchanged. -/
theorem run : θ_run defs (onTc (τ := τ) (main (F := Ideal))) ⟨m, fun _ => 0, ρ⟩ fun r => ∀ c : Dev nD,
      r.2.mem ((c : Thread nD τ).loc main_v41)
        = Spec.product (m ((c : Thread nD τ).loc main_arg0))
            (Cert.ReferenceIdeal.Weights.weights (F := Ideal) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show Spec.product (V m c main_arg0) (V m c main_v40) = _
      rw [V_main_arg0 m c, HostValue.entry_weights m c])), (h c).2⟩)
    (Value.run_blocks m ρ)

end Cert.KernelIdeal.Result

end
-- ==== Proof.RefRun.lean ====
/-
  The reference program's @main as ONE list of its 80 host operations, and its run read back.

  The program is a straight line: the 18 operations of the scaled softmax, the 6 of the outlined clip
  (inlined at its call, over that call's own buffers), the 11 that scale the rows of the first
  parameter and build the index sum, the 21 of the outlined floored remainder (its own outlined
  select inlined inside it), the 22 that normalize the two index arrays, join them and scatter-add
  the scaled rows into zeros, then the transpose of that matrix and the matrix product with the
  left operand.

  `run`: on every device, from any memory with zero counters, every weakly fair execution of @main
  terminates with the result buffer at the product of the left operand with the transposed weight
  matrix `Weights.weights` of the two parameter arrays, the three arguments unchanged.
-/
import proofs.«141629_j65618510348678_1_alg».proof.Proof.Gen.ReferenceIdeal
import proofs.«141629_j65618510348678_1_alg».proof.Proof.HostWeights
import proofs.«141629_j65618510348678_1_alg».proof.Proof.LibConcatCongr
import Idealize.ShloMosaic.Lib.StableHlo.Run
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 80 operations, in order, the two outlined functions' bodies inlined at their calls. -/
abbrev ops : List (HloOp τ sig (Elt F)) :=
  [ StableHlo.nullary main_cst (constant S_ .f32 0xFF800000#32),
    StableHlo.binary main_arg2 main_cst main_v0 ((fun x v => Host.reduce FloatOps.maximumf x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_0 (constant S_ .f32 0xFF800000#32),
    StableHlo.binary main_cst_0 main_v0 main_v1 (maximumf : (⟨S_, .f32⟩ : BufTy).Contents (Elt F) → (⟨S_, .f32⟩ : BufTy).Contents (Elt F) → (⟨S_, .f32⟩ : BufTy).Contents (Elt F)),
    StableHlo.unary main_v1 main_v2 (broadcastInDim S1 ![] bcast_S_S1 : (⟨S_, .f32⟩ : BufTy).Contents (Elt F) → (⟨S1, .f32⟩ : BufTy).Contents (Elt F)),
    StableHlo.unary main_v2 main_v3 (broadcastInDim S4096 ![0] bcast_S1_S4096_0 : (⟨S1, .f32⟩ : BufTy).Contents (Elt F) → (⟨S4096, .f32⟩ : BufTy).Contents (Elt F)),
    StableHlo.binary main_arg2 main_v3 main_v4 (subf : (⟨S4096, .f32⟩ : BufTy).Contents (Elt F) → (⟨S4096, .f32⟩ : BufTy).Contents (Elt F) → (⟨S4096, .f32⟩ : BufTy).Contents (Elt F)),
    StableHlo.unary main_v4 main_v5 (Host.exp : (⟨S4096, .f32⟩ : BufTy).Contents (Elt F) → (⟨S4096, .f32⟩ : BufTy).Contents (Elt F)),
    StableHlo.nullary main_cst_1 (constant S_ .f32 0x00000000#32),
    StableHlo.binary main_v5 main_cst_1 main_v6 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v6 main_v7 (broadcastInDim S1 ![] bcast_S_S1 : (⟨S_, .f32⟩ : BufTy).Contents (Elt F) → (⟨S1, .f32⟩ : BufTy).Contents (Elt F)),
    StableHlo.unary main_v7 main_v8 (broadcastInDim S4096 ![0] bcast_S1_S4096_0 : (⟨S1, .f32⟩ : BufTy).Contents (Elt F) → (⟨S4096, .f32⟩ : BufTy).Contents (Elt F)),
    StableHlo.binary main_v5 main_v8 main_v9 (Host.divf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x45667000#32),
    StableHlo.unary main_cst_2 main_v10 (broadcastInDim S4096 ![] bcast_S_S4096 : (⟨S_, .f32⟩ : BufTy).Contents (Elt F) → (⟨S4096, .f32⟩ : BufTy).Contents (Elt F)),
    StableHlo.binary main_v10 main_v9 main_v11 (mulf : (⟨S4096, .f32⟩ : BufTy).Contents (Elt F) → (⟨S4096, .f32⟩ : BufTy).Contents (Elt F) → (⟨S4096, .f32⟩ : BufTy).Contents (Elt F)),
    StableHlo.nullary main_cst_3 (constant S_ .f32 0x00000000#32),
    StableHlo.nullary main_cst_4 (constant S_ .f32 0x3F800000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096, .f32⟩) (broadcastInDim S4096 ![] bcast_S_S4096),
    StableHlo.TRef.binary (.of main_call0_v1 : StableHlo.TRef sig ⟨S4096, .f32⟩) (.of main_v11 : StableHlo.TRef sig ⟨S4096, .f32⟩) (.of main_call0_v2 : StableHlo.TRef sig ⟨S4096, .f32⟩) maximumf,
    StableHlo.TRef.unary (.of main_cst_4 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4096, .f32⟩) (broadcastInDim S4096 ![] bcast_S_S4096),
    StableHlo.TRef.binary (.of main_call0_v4 : StableHlo.TRef sig ⟨S4096, .f32⟩) (.of main_call0_v2 : StableHlo.TRef sig ⟨S4096, .f32⟩) (.of main_v12 : StableHlo.TRef sig ⟨S4096, .f32⟩) minimumf,
    StableHlo.unary main_v12 main_v13 (broadcastInDim S4096x1 ![0] bcast_S4096_S4096x1_0 : (⟨S4096, .f32⟩ : BufTy).Contents (Elt F) → (⟨S4096x1, .f32⟩ : BufTy).Contents (Elt F)),
    StableHlo.unary main_v13 main_v14 (broadcastInDim S4096x4096 ![0, 1] bcast_S4096x1_S4096x4096_0_1 : (⟨S4096x1, .f32⟩ : BufTy).Contents (Elt F) → (⟨S4096x4096, .f32⟩ : BufTy).Contents (Elt F)),
    StableHlo.binary main_arg1 main_v14 main_v15 (mulf : (⟨S4096x4096, .f32⟩ : BufTy).Contents (Elt F) → (⟨S4096x4096, .f32⟩ : BufTy).Contents (Elt F) → (⟨S4096x4096, .f32⟩ : BufTy).Contents (Elt F)),
    StableHlo.nullary main_v16 (iotaInDim S4096 32 0),
    StableHlo.nullary main_v17 (iotaInDim S4096 32 0),
    StableHlo.unary main_v16 main_v18 (broadcastInDim S1x4096 ![1] bcast_S4096_S1x4096_1 : (⟨S4096, .i32⟩ : BufTy).Contents (Elt F) → (⟨S1x4096, .i32⟩ : BufTy).Contents (Elt F)),
    StableHlo.unary main_v17 main_v19 (broadcastInDim S4096x1 ![0] bcast_S4096_S4096x1_0 : (⟨S4096, .i32⟩ : BufTy).Contents (Elt F) → (⟨S4096x1, .i32⟩ : BufTy).Contents (Elt F)),
    StableHlo.unary main_v18 main_v20 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v19 main_v21 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v20 main_v21 main_v22 (addi : (⟨S4096x4096, .i32⟩ : BufTy).Contents (Elt F) → (⟨S4096x4096, .i32⟩ : BufTy).Contents (Elt F) → (⟨S4096x4096, .i32⟩ : BufTy).Contents (Elt F)),
    StableHlo.nullary main_c (constantI S_ 32 4096#32),
    StableHlo.TRef.unary (.of main_c : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S4096x4096, .i32⟩) (broadcastInDim S4096x4096 ![] bcast_S_S4096x4096),
    StableHlo.TRef.binary (.of main_v22 : StableHlo.TRef sig ⟨S4096x4096, .i32⟩) (.of main_call1_v3 : StableHlo.TRef sig ⟨S4096x4096, .i32⟩) (.of main_call1_v4 : StableHlo.TRef sig ⟨S4096x4096, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S4096x4096, .i32⟩) (broadcastInDim S4096x4096 ![] bcast_S_S4096x4096),
    StableHlo.TRef.binary (.of main_call1_v4 : StableHlo.TRef sig ⟨S4096x4096, .i32⟩) (.of main_call1_v5 : StableHlo.TRef sig ⟨S4096x4096, .i32⟩) (.of main_call1_v6 : StableHlo.TRef sig ⟨S4096x4096, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S4096x4096, .i32⟩) (broadcastInDim S4096x4096 ![] bcast_S_S4096x4096),
    StableHlo.TRef.binary (.of main_call1_v4 : StableHlo.TRef sig ⟨S4096x4096, .i32⟩) (.of main_call1_v7 : StableHlo.TRef sig ⟨S4096x4096, .i32⟩) (.of main_call1_v8 : StableHlo.TRef sig ⟨S4096x4096, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S4096x4096, .i1⟩) (broadcastInDim S4096x4096 ![] bcast_S_S4096x4096),
    StableHlo.TRef.binary (.of main_call1_v8 : StableHlo.TRef sig ⟨S4096x4096, .i1⟩) (.of main_call1_v10 : StableHlo.TRef sig ⟨S4096x4096, .i1⟩) (.of main_call1_v11 : StableHlo.TRef sig ⟨S4096x4096, .i1⟩) (cmpi .ne),
    StableHlo.TRef.binary (.of main_call1_v11 : StableHlo.TRef sig ⟨S4096x4096, .i1⟩) (.of main_call1_v6 : StableHlo.TRef sig ⟨S4096x4096, .i1⟩) (.of main_call1_v12 : StableHlo.TRef sig ⟨S4096x4096, .i1⟩) andi,
    StableHlo.TRef.unary main_call1_call0.v0 (.of main_call1_v13 : StableHlo.TRef sig ⟨S4096x4096, .i32⟩) (broadcastInDim S4096x4096 ![] bcast_S_S4096x4096),
    StableHlo.TRef.binary (.of main_call1_v4 : StableHlo.TRef sig ⟨S4096x4096, .i32⟩) (.of main_call1_v13 : StableHlo.TRef sig ⟨S4096x4096, .i32⟩) (.of main_call1_v14 : StableHlo.TRef sig ⟨S4096x4096, .i32⟩) addi,
    StableHlo.TRef.ternary (.of main_call1_v12 : StableHlo.TRef sig ⟨S4096x4096, .i1⟩) (.of main_call1_v14 : StableHlo.TRef sig ⟨S4096x4096, .i32⟩) (.of main_call1_v4 : StableHlo.TRef sig ⟨S4096x4096, .i32⟩) (.of main_v23 : StableHlo.TRef sig ⟨S4096x4096, .i32⟩) select,
    StableHlo.unary main_v16 main_v24 (broadcastInDim S1x4096 ![1] bcast_S4096_S1x4096_1 : (⟨S4096, .i32⟩ : BufTy).Contents (Elt F) → (⟨S1x4096, .i32⟩ : BufTy).Contents (Elt F)),
    StableHlo.unary main_v24 main_v25 (broadcastInDim S4096x4096 ![0, 1] bcast_S1x4096_S4096x4096_0_1 : (⟨S1x4096, .i32⟩ : BufTy).Contents (Elt F) → (⟨S4096x4096, .i32⟩ : BufTy).Contents (Elt F)),
    StableHlo.nullary main_cst_5 (constant S_ .f32 0x00000000#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.nullary main_c_6 (constantI S_ 32 0#32),
    StableHlo.unary main_c_6 main_v27 (broadcastInDim S4096x4096 ![] bcast_S_S4096x4096 : (⟨S_, .i32⟩ : BufTy).Contents (Elt F) → (⟨S4096x4096, .i32⟩ : BufTy).Contents (Elt F)),
    StableHlo.binary main_v23 main_v27 main_v28 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_7 (constantI S_ 32 4096#32),
    StableHlo.unary main_c_7 main_v29 (broadcastInDim S4096x4096 ![] bcast_S_S4096x4096 : (⟨S_, .i32⟩ : BufTy).Contents (Elt F) → (⟨S4096x4096, .i32⟩ : BufTy).Contents (Elt F)),
    StableHlo.binary main_v23 main_v29 main_v30 (addi : (⟨S4096x4096, .i32⟩ : BufTy).Contents (Elt F) → (⟨S4096x4096, .i32⟩ : BufTy).Contents (Elt F) → (⟨S4096x4096, .i32⟩ : BufTy).Contents (Elt F)),
    StableHlo.ternary main_v28 main_v30 main_v23 main_v31 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.nullary main_c_8 (constantI S_ 32 0#32),
    StableHlo.unary main_c_8 main_v32 (broadcastInDim S4096x4096 ![] bcast_S_S4096x4096 : (⟨S_, .i32⟩ : BufTy).Contents (Elt F) → (⟨S4096x4096, .i32⟩ : BufTy).Contents (Elt F)),
    StableHlo.binary main_v25 main_v32 main_v33 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_9 (constantI S_ 32 4096#32),
    StableHlo.unary main_c_9 main_v34 (broadcastInDim S4096x4096 ![] bcast_S_S4096x4096 : (⟨S_, .i32⟩ : BufTy).Contents (Elt F) → (⟨S4096x4096, .i32⟩ : BufTy).Contents (Elt F)),
    StableHlo.binary main_v25 main_v34 main_v35 (addi : (⟨S4096x4096, .i32⟩ : BufTy).Contents (Elt F) → (⟨S4096x4096, .i32⟩ : BufTy).Contents (Elt F) → (⟨S4096x4096, .i32⟩ : BufTy).Contents (Elt F)),
    StableHlo.ternary main_v33 main_v35 main_v25 main_v36 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.unary main_v31 main_v37 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.unary main_v36 main_v38 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.binary main_v37 main_v38 main_v39 ((fun a b => concatenate S4096x4096x2 2 [⟨S4096x4096x1, a⟩, ⟨S4096x4096x1, b⟩] concatenates_S4096x4096x1_S4096x4096x1_S4096x4096x2_d2) : (⟨S4096x4096x1, .i32⟩ : BufTy).Contents (Elt F) → (⟨S4096x4096x1, .i32⟩ : BufTy).Contents (Elt F) → (⟨S4096x4096x2, .i32⟩ : BufTy).Contents (Elt F)),
    StableHlo.ternary main_v26 main_v39 main_v15 main_v40 ((fun x i u => Host.scatterAdd scatter_S4096x4096_S4096x4096x2_S4096x4096_n_01_01_2 x i u) : (⟨S4096x4096, .f32⟩ : BufTy).Contents (Elt F) → (⟨S4096x4096x2, .i32⟩ : BufTy).Contents (Elt F) → (⟨S4096x4096, .f32⟩ : BufTy).Contents (Elt F) → (⟨S4096x4096, .f32⟩ : BufTy).Contents (Elt F)),
    StableHlo.unary main_v40 main_v41 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v41 main_v42 ((fun l r => Host.dotGeneral dot_S256x4096_S4096x4096_S256x4096_1_0_0_1_n_n none l r) : (⟨S256x4096, .f32⟩ : BufTy).Contents (Elt F) → (⟨S4096x4096, .f32⟩ : BufTy).Contents (Elt F) → (⟨S256x4096, .f32⟩ : BufTy).Contents (Elt F)) ]

/-- @main is that straight line: unfolding the two outlined functions at their calls and reassociating the
    sequencing is definitional. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., unary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..,
    unary_bufs_sub .., binary_bufs_sub ..⟩

attribute [local congr] Cert.Lib.concatenate_pair_congr

attribute [local irreducible] Host.scatterAdd concatenate broadcastInDim transpose Host.reduce Host.reduceAdd Host.remsi iotaInDim in
/-- On every device, for any float values, from any memory with zero counters: every weakly fair execution of
    @main terminates with the result buffer at the product of the left operand with the transpose of
    `Weights.weights` of the two parameter arrays, and the three arguments unchanged. The fold of the 80
    operations at the result buffer is each operation applied to its operands' terms; for the first 78 that is,
    stage by stage, the definition of the weight matrix, an outlined function's values read through the
    identity transport of its typed references. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = Host.dotGeneral dot_S256x4096_S4096x4096_S256x4096_1_0_0_1_n_n none (m ((c.tc : Thread nD τ).loc main_arg0))
            (transpose S4096x4096 [1, 0] (Cert.ReferenceIdeal.Weights.weights (m ((c.tc : Thread nD τ).loc main_arg1)) (m ((c.tc : Thread nD τ).loc main_arg2))) transposes_S4096x4096_S4096x4096_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.HostRun

end
-- ==== Proof.RefProduct.lean ====
/-
  The reference's last two operations read at one element, at the ideal values.

  The reference transposes the weight matrix `w` and contracts the left operand's second axis with the
  transposed matrix's first. At the extended reals a `dot_general` with one contracted axis is, at output
  position `(p, n)`, the sum over the contraction position `q` of the left operand at `(p, q)` times the
  right operand at `(q, n)`; the right operand being `w` transposed, its entry at `(q, n)` is `w` at
  `(n, q)`. So element `(p, n)` of the product is `∑ q, x (p, q) · w (n, q)`: row `p` of `x` against row
  `n` of `w`.
-/
import proofs.«141629_j65618510348678_1_alg».proof.Proof.Gen.ReferenceIdeal
import Idealize.ShloMosaic.PureOps.Ideal.Laws
import Idealize.ShloMosaic.Lib.ValueIdx
import Idealize.ShloMosaic.Lib.Pipeline.Value

noncomputable section

open scoped BigOperators

namespace Cert.ReferenceIdeal.Product

open Cert.ReferenceIdeal Cert.ReferenceIdeal.Gen Idealize.ShloMosaic Idealize.ShloMosaic.ValueIdx

/-- The product's dimension numbers: the left operand's axis 1 against the right operand's axis 0, no batch axis. -/
abbrev dims : DotDims S256x4096 S4096x4096 S256x4096 := dot_S256x4096_S4096x4096_S256x4096_1_0_0_1_n_n

/-! ## The operand positions at an output position and a contraction position, coordinate by coordinate -/

/-- The left operand's row is the output's row. -/
theorem lhs_0 (i : S256x4096.Idx) (q : dims.contr.Idx) : (dims.lhsIdx i q 0).val = (i 0).val := by
  unfold DotDims.lhsIdx
  rw [dif_neg (show ¬(0 : Fin S256x4096.rank) ∈ dims.lhsBatch by decide),
    dif_pos (show (0 : Fin S256x4096.rank) ∈ dims.lhsNonContracting by decide)]
  rfl

/-- The left operand's column is the contraction position. -/
theorem lhs_1 (i : S256x4096.Idx) (q : dims.contr.Idx) : (dims.lhsIdx i q 1).val = (q ⟨0, by decide⟩).val :=
  dims.lhsIdx_val_of_single rfl i q

/-- The right operand's row is the contraction position. -/
theorem rhs_0 (i : S256x4096.Idx) (q : dims.contr.Idx) : (dims.rhsIdx i q 0).val = (q ⟨0, by decide⟩).val :=
  dims.rhsIdx_val_of_single rfl i q

/-- The right operand's column is the output's column. -/
theorem rhs_1 (i : S256x4096.Idx) (q : dims.contr.Idx) : (dims.rhsIdx i q 1).val = (i 1).val := by
  unfold DotDims.rhsIdx
  rw [dif_neg (show ¬(1 : Fin S4096x4096.rank) ∈ dims.rhsBatch by decide),
    dif_pos (show (1 : Fin S4096x4096.rank) ∈ dims.rhsNonContracting by decide)]
  rfl

/-! ## The product at an element -/

/-- Element `(p, n)` of `x · wᵀ` is `∑ q, x (p, q) · w (n, q)`. -/
theorem product_apply (x : FVec Ideal S256x4096 .f32) (w : FVec Ideal S4096x4096 .f32) (p : Fin 256) (n : Fin 4096) :
    Host.dotGeneral (F := Ideal) dot_S256x4096_S4096x4096_S256x4096_1_0_0_1_n_n none x
        (transpose S4096x4096 [1, 0] w transposes_S4096x4096_S4096x4096_1_0) (ValueIdx.ix2 p n)
      = ∑ q : Fin 4096, x (ValueIdx.ix2 p q) * w (ValueIdx.ix2 n q) := by
  simp only [Host.dotGeneral]
  rw [Ideal.dotGeneral_apply, ← Equiv.sum_comp (ValueIdx.contrEquiv1 dims 4096 rfl rfl).symm]
  refine Finset.sum_congr rfl fun k _ => ?_
  have hk := ValueIdx.contrEquiv1_symm_val dims 4096 rfl rfl k
  have el : dims.lhsIdx (ValueIdx.ix2 p n) ((ValueIdx.contrEquiv1 dims 4096 rfl rfl).symm k) = ValueIdx.ix2 p k :=
    funext fun a => Fin.ext (by
      match a with
      | ⟨0, _⟩ => exact lhs_0 _ _
      | ⟨1, _⟩ => exact (lhs_1 _ _).trans hk)
  have er : dims.rhsIdx (ValueIdx.ix2 p n) ((ValueIdx.contrEquiv1 dims 4096 rfl rfl).symm k) = ValueIdx.ix2 k n :=
    funext fun a => Fin.ext (by
      match a with
      | ⟨0, _⟩ => exact (rhs_0 _ _).trans hk
      | ⟨1, _⟩ => exact rhs_1 _ _)
  rw [el, er]
  refine congrArg (x (ValueIdx.ix2 p k) * ·) ?_
  exact transpose_apply [1, 0] w transposes_S4096x4096_S4096x4096_1_0 (ValueIdx.ix2 k n) (ValueIdx.ix2 n k)
    (fun c => match c with | ⟨0, _⟩ => rfl | ⟨1, _⟩ => rfl)

end Cert.ReferenceIdeal.Product

end
-- ==== Proof.lean ====
/-
  A tiled matrix product against one whole matrix product.

  Both programs first build, by the same host operations, a weight matrix `W = weights V α` from the two
  parameter arrays (a clipped, scaled softmax of `α` gates the rows of `V`, which are then added into a zero matrix
  along wrapped diagonals). The reference then computes `X · Wᵀ` as one product of the left operand `X` with the
  transposed matrix. The kernel computes it block by block: for each of four output block columns it runs four
  steps along the contraction axis, accumulating the products of a `[256, 1024]` block of `X` with a
  `[1024, 1024]` block of `W` (both narrowed to bf16 first — the identity at the ideal values) in a scratch
  accumulator that it zeroes at the first step and copies out at the last.

  At the ideal values the two results are equal entry by entry: entry `(p, n)` is `Σ_r X (p, r) · W (n, r)` on
  both sides, the kernel's four partial sums over blocks of `1024` contraction positions being that sum regrouped.
  Regrouping uses only commutativity and associativity of addition on the extended reals, so the precondition
  (finite inputs) is never opened; and `W` is never opened either: both programs hold the same term for it.

  The kernel's idealization rewrote no operation, so `preserves` asks nothing. The three frames are the generated
  frame runs (the reference's: its run with the result dropped).
-/
import proofs.«141629_j65618510348678_1_alg».proof.Defs
import proofs.«141629_j65618510348678_1_alg».proof.Proof.Gen.Kernel
import proofs.«141629_j65618510348678_1_alg».proof.Proof.Gen.Kernel.Frame
import proofs.«141629_j65618510348678_1_alg».proof.Proof.Gen.KernelIdeal
import proofs.«141629_j65618510348678_1_alg».proof.Proof.Gen.KernelIdeal.Frame
import proofs.«141629_j65618510348678_1_alg».proof.Proof.Gen.ReferenceIdeal
import proofs.«141629_j65618510348678_1_alg».proof.Proof.Gen.Pre_finite_inputs
import proofs.«141629_j65618510348678_1_alg».proof.Proof.KernelValue
import proofs.«141629_j65618510348678_1_alg».proof.Proof.RefRun
import proofs.«141629_j65618510348678_1_alg».proof.Proof.RefProduct
import proofs.«141629_j65618510348678_1_alg».proof.Proof.ProductSpec

noncomputable section

open Idealize.ShloMosaic Idealize.ShloMosaic.TcCoe Idealize.SL.Sem

namespace Cert.Proof

open Idealize.ShloMosaic.ValueIdx

/-- The reference's product with the transposed matrix is `X · Wᵀ`, entry by entry. -/
theorem reference_is_product (x : FVec Ideal Cert.ReferenceIdeal.S256x4096 .f32) (w : FVec Ideal Cert.ReferenceIdeal.S4096x4096 .f32) :
    Host.dotGeneral (F := Ideal) Cert.ReferenceIdeal.dot_S256x4096_S4096x4096_S256x4096_1_0_0_1_n_n none x
        (transpose Cert.ReferenceIdeal.S4096x4096 [1, 0] w Cert.ReferenceIdeal.Facts₀.transposes_S4096x4096_S4096x4096_1_0)
      = Cert.Spec.product x w := by
  refine funext fun (i : Cert.ReferenceIdeal.S256x4096.Idx) => ?_
  obtain ⟨p, n, rfl⟩ : ∃ (p : Fin 256) (n : Fin 4096), i = ix2 p n := ⟨i 0, i 1, eq_ix2 i⟩
  exact Cert.ReferenceIdeal.Product.product_apply x w p n

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- From memories that agree on the three arguments both programs end with their result at `X · Wᵀ` of the same
    `X` and the same `W = weights V α`. -/
theorem algebraic : Cert.algebraic_KernelIdeal_ReferenceIdeal := by
  intro m ρ m' ρ' _ hagree
  refine ⟨fun c => Cert.Spec.product (m ((c : Thread Cert.KernelIdeal.nD Cert.KernelIdeal.τ).loc Cert.KernelIdeal.main_arg0))
      (Cert.ReferenceIdeal.Weights.weights (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2))),
    Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact reference_is_product _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
